-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x640000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩

abbrev nBuf : Space → Nat
  | .hbm => 70
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S100000x128, .f32⟩
  | .hbm, ⟨23, _⟩ => ⟨S640000x1, .i32⟩
  | .hbm, ⟨24, _⟩ => ⟨S100000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S100000, .f32⟩
  | .hbm, ⟨29, _⟩ => ⟨S640000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S128x128, .f32⟩
  | .hbm, ⟨39, _⟩ => ⟨S1x128, .f32⟩
  | .hbm, ⟨40, _⟩ => ⟨S100000x128, .f32⟩
  | .hbm, ⟨41, _⟩ => ⟨S_, .i32⟩
  | .hbm, ⟨42, _⟩ => ⟨S640000, .i32⟩
  | .hbm, ⟨43, _⟩ => ⟨S640000, .i1⟩
  | .hbm, ⟨44, _⟩ => ⟨S_, .i32⟩
  | .hbm, ⟨45, _⟩ => ⟨S640000, .i32⟩
  | .hbm, ⟨46, _⟩ => ⟨S640000, .i32⟩
  | .hbm, ⟨47, _⟩ => ⟨S640000, .i32⟩
  | .hbm, ⟨48, _⟩ => ⟨S640000x1, .i32⟩
  | .hbm, ⟨49, _⟩ => ⟨S640000x128, .f32⟩
  | .hbm, ⟨50, _⟩ => ⟨S_, .f32⟩
  | .hbm, ⟨51, _⟩ => ⟨S100000x128, .f32⟩
  | .hbm, ⟨52, _⟩ => ⟨S640000x1, .i32⟩
  | .hbm, ⟨53, _⟩ => ⟨S100000x128, .f32⟩
  | .hbm, ⟨54, _⟩ => ⟨S_, .f32⟩
  | .hbm, ⟨55, _⟩ => ⟨S640000, .f32⟩
  | .hbm, ⟨56, _⟩ => ⟨S_, .f32⟩
  | .hbm, ⟨57, _⟩ => ⟨S100000, .f32⟩
  | .hbm, ⟨58, _⟩ => ⟨S640000x1, .i32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x128, .f32⟩
  | .hbm, ⟨65, _⟩ => ⟨S100000x128, .f32⟩
  | .hbm, ⟨66, _⟩ => ⟨S128x128, .f32⟩
  | .hbm, ⟨67, _⟩ => ⟨S128x128, .f32⟩
  | .hbm, ⟨68, _⟩ => ⟨S1x128, .f32⟩
  | .hbm, ⟨69, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 85
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S100000x128, .f32⟩
  | .hbm, ⟨23, _⟩ => ⟨S640000x1, .i32⟩
  | .hbm, ⟨24, _⟩ => ⟨S100000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S100000, .f32⟩
  | .hbm, ⟨29, _⟩ => ⟨S640000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S1x640000, .i32⟩
  | .hbm, ⟨49, _⟩ => ⟨S640000, .i32⟩
  | .hbm, ⟨50, _⟩ => ⟨S1x640000, .i32⟩
  | .hbm, ⟨51, _⟩ => ⟨S640000, .i32⟩
  | .hbm, ⟨52, _⟩ => ⟨S_, .i32⟩
  | .hbm, ⟨53, _⟩ => ⟨S640000, .i32⟩
  | .hbm, ⟨54, _⟩ => ⟨S640000, .i1⟩
  | .hbm, ⟨55, _⟩ => ⟨S_, .i32⟩
  | .hbm, ⟨56, _⟩ => ⟨S640000, .i32⟩
  | .hbm, ⟨57, _⟩ => ⟨S640000, .i32⟩
  | .hbm, ⟨58, _⟩ => ⟨S640000, .i32⟩
  | .hbm, ⟨59, _⟩ => ⟨S640000x1, .i32⟩
  | .hbm, ⟨60, _⟩ => ⟨S640000x128, .f32⟩
  | .hbm, ⟨61, _⟩ => ⟨S_, .f32⟩
  | .hbm, ⟨62, _⟩ => ⟨S100000x128, .f32⟩
  | .hbm, ⟨63, _⟩ => ⟨S640000x1, .i32⟩
  | .hbm, ⟨64, _⟩ => ⟨S100000x128, .f32⟩
  | .hbm, ⟨65, _⟩ => ⟨S_, .f32⟩
  | .hbm, ⟨66, _⟩ => ⟨S640000, .f32⟩
  | .hbm, ⟨67, _⟩ => ⟨S_, .f32⟩
  | .hbm, ⟨68, _⟩ => ⟨S100000, .f32⟩
  | .hbm, ⟨69, _⟩ => ⟨S640000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x128, .f32⟩
  | .hbm, ⟨76, _⟩ => ⟨S100000x128, .f32⟩
  | .hbm, ⟨77, _⟩ => ⟨S128x128, .f32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S128x128, .f32⟩
  | .hbm, ⟨83, _⟩ => ⟨S100000x128, .f32⟩
  | .hbm, ⟨84, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_4 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x128_S128x128_S100000x128_1_0_0_1_n_n_wf : DotDims.WF S100000x128 S128x128 S100000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Sage.lean ====
/-
  THE SPECIFICATION: a two-layer GraphSAGE encoder with mean aggregation, as one function of the eight argument
  arrays, written with the host's own operations.

  For node features `H : [100000, 128]` and an edge list `E : [2, 640000]` (row 0 the sources, row 1 the targets):
    * `meanAgg H E` gathers the source row of every edge (a negative source counted from the end), adds it onto the
      edge's target row of a zero array, and divides row `n` by `max (deg n) 1`, `deg n` the number of edges into `n`;
    * `combine A X Wl b Wr = (A · Wlᵀ + b) + X · Wrᵀ`, the bias `b : [128]` spread over the rows;
    * `relu H = max H 0`.
  The encoder is `hidden = relu (combine (meanAgg x E) x W1l b1 W1r)` and then
  `out = combine (meanAgg hidden E) hidden W2l b2 W2r`. The reference program's result term is exactly this
  composition (`res_eq`, by unfolding the names).
-/
import proofs.«102868_j6708738916582_1_alg».proof.Proof.Gen.ReferenceIdeal.Run

set_option maxRecDepth 16384

noncomputable section

namespace Cert.Sage

open Cert.ReferenceIdeal Cert.ReferenceIdeal.Gen Idealize.ShloMosaic Idealize.ShloMosaic.TcCoe Idealize.SL.Sem

variable {F : FTy → Type} [FloatOps F]

/-- The feature arrays, the weight matrices, the bias vectors, the edge list. -/
abbrev Feat (F : FTy → Type) := (⟨S100000x128, .f32⟩ : BufTy).Contents (Elt F)
abbrev Mat (F : FTy → Type) := (⟨S128x128, .f32⟩ : BufTy).Contents (Elt F)
abbrev Bias (F : FTy → Type) := (⟨S128, .f32⟩ : BufTy).Contents (Elt F)
abbrev Edges (F : FTy → Type) := (⟨S2x640000, .i32⟩ : BufTy).Contents (Elt F)

/-- Row 0 of the edge list: every edge's source node. -/
def srcRow (E : Edges F) : (⟨S640000, .i32⟩ : BufTy).Contents (Elt F) :=
  shapeCast _ (extractStridedSlice S1x640000 ![0, 0] E slices_S2x640000_S1x640000_0_0) shapeCasts_S1x640000_S640000

/-- Row 1 of the edge list: every edge's target node. -/
def dstRow (E : Edges F) : (⟨S640000, .i32⟩ : BufTy).Contents (Elt F) :=
  shapeCast _ (extractStridedSlice S1x640000 ![1, 0] E slices_S2x640000_S1x640000_1_0) shapeCasts_S1x640000_S640000

/-- The gather's start indices: the sources, a negative one counted from the end (plus 100000), as a column. -/
def srcIdx (E : Edges F) : (⟨S640000x1, .i32⟩ : BufTy).Contents (Elt F) :=
  broadcastInDim S640000x1 ![0] bcast_S640000_S640000x1_0 (select (cmpi .slt (srcRow E) (broadcastInDim S640000 ![] bcast_S_S640000 (constantI S_ 32 0#32))) (addi (srcRow E) (broadcastInDim S640000 ![] bcast_S_S640000 (constantI S_ 32 100000#32))) (srcRow E))

/-- The scatter's indices: the targets, as a column. -/
def dstIdx (E : Edges F) : (⟨S640000x1, .i32⟩ : BufTy).Contents (Elt F) :=
  broadcastInDim S640000x1 ![0] bcast_S640000_S640000x1_0 (dstRow E)

/-- `max (deg n) 1`: one added per edge onto its target's entry of a zero vector, then the maximum with one. -/
def degree (E : Edges F) : (⟨S100000, .f32⟩ : BufTy).Contents (Elt F) :=
  maximumf (Host.scatterAdd scatter_S100000_S640000x1_S640000_n_0_0_1 (broadcastInDim S100000 ![] bcast_S_S100000 (constant S_ .f32 0x00000000#32)) (dstIdx E) (broadcastInDim S640000 ![] bcast_S_S640000 (constant S_ .f32 0x3F800000#32))) (broadcastInDim S100000 ![] bcast_S_S100000 (constant S_ .f32 0x3F800000#32))

/-- The mean over a node's incoming edges of the source rows of `H` (zero for a node no edge enters). -/
def meanAgg (H : Feat F) (E : Edges F) : Feat F :=
  Host.divf (Host.scatterAdd scatter_S100000x128_S640000x1_S640000x128_1_0_0_1 (broadcastInDim S100000x128 ![] bcast_S_S100000x128 (constant S_ .f32 0x00000000#32)) (dstIdx E) (Host.gather gather_S100000x128_S640000x1_S640000x128_1_0_n_n_0_1_1128 H (srcIdx E))) (broadcastInDim S100000x128 ![0, 1] bcast_S100000x1_S100000x128_0_1 (broadcastInDim S100000x1 ![0] bcast_S100000_S100000x1_0 (degree E)))

/-- `(A · Wlᵀ + b) + X · Wrᵀ`. -/
def combine (A X : Feat F) (Wl : Mat F) (b : Bias F) (Wr : Mat F) : Feat F :=
  addf (addf (Host.dotGeneral dot_S100000x128_S128x128_S100000x128_1_0_0_1_n_n none A (transpose S128x128 [1, 0] Wl transposes_S128x128_S128x128_1_0)) (broadcastInDim S100000x128 ![0, 1] bcast_S1x128_S100000x128_0_1 (broadcastInDim S1x128 ![1] bcast_S128_S1x128_1 b))) (Host.dotGeneral dot_S100000x128_S128x128_S100000x128_1_0_0_1_n_n none X (transpose S128x128 [1, 0] Wr transposes_S128x128_S128x128_1_0))

/-- `max H 0`, entry by entry. -/
def relu (H : Feat F) : Feat F :=
  maximumf H (broadcastInDim S100000x128 ![] bcast_S_S100000x128 (constant S_ .f32 0x00000000#32))

/-- The first layer's output. -/
def hidden (x : Feat F) (E : Edges F) (W1l : Mat F) (b1 : Bias F) (W1r : Mat F) : Feat F :=
  relu (combine (meanAgg x E) x W1l b1 W1r)

/-- The encoder's output. -/
def out (x : Feat F) (E : Edges F) (W1l : Mat F) (b1 : Bias F) (W1r : Mat F) (W2l : Mat F) (b2 : Bias F) (W2r : Mat F) : Feat F :=
  combine (meanAgg (hidden x E W1l b1 W1r) E) (hidden x E W1l b1 W1r) W2l b2 W2r

/-- The reference program's result term is the encoder of its argument arrays. -/
theorem res_eq (m : (ℓ : Loc nD τ sig) → Buf (Elt F) ℓ) (c : Dev nD) :
    Cert.ReferenceIdeal.Value.res_main_v62 (F := F) m c
      = out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.Value.res_main_v62 out hidden relu combine meanAgg degree dstIdx srcIdx dstRow srcRow
  rfl

end Cert.Sage

end
-- ==== Proof.KernelRun.lean ====
/-
  The idealized kernel's run with its RESULT kept. The program is four segments in order — a stretch of host
  operations, the first layer's combine region, a second stretch, the second layer's combine region — and the
  buffer contents at the four boundaries are a fold from the launch memory (`Gen.W1` … `Gen.W4`). Every weakly
  fair execution terminates with every unscoped buffer at the last boundary's contents `Gen.W4`; read at the
  result buffer and at the eight arguments this is the statement below. (The frame claim keeps only the
  arguments; the value claim needs the result as well, so the same launch is read once more, at one more buffer.)
-/
import proofs.«102868_j6708738916582_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v49) = W4 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v49 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Named

end
-- ==== Proof.DotAt.lean ====
/-
  A matrix product read at one entry. Both programs contract axis 1 of a tall operand `[n, 128]` with axis 0 of a
  `[128, 128]` matrix: the host's `dot_general` over the whole array (`n = 100000`) and the kernel's matmul, into a
  zero accumulator, over one block of rows (`n = 5000`). On the extended reals each is the plain sum
  `∑ k, lhs (p, k) · rhs (k, q)` at entry `(p, q)`: the contraction's index type has one axis of extent 128, and the
  two operand indices the product reads at `(p, q)` and `k` are `(p, k)` and `(k, q)`.
-/
import proofs.«102868_j6708738916582_1_alg».proof.Proof.Gen.KernelIdeal
import proofs.«102868_j6708738916582_1_alg».proof.Proof.Gen.ReferenceIdeal
import Idealize.ShloMosaic.Lib.ValueIdx
import Idealize.ShloMosaic.PureOps.Ideal.Laws

noncomputable section

namespace Cert.Sage.At

open Idealize.ShloMosaic Idealize.ShloMosaic.TcCoe Idealize.ShloMosaic.ValueIdx

/-! ## The host's product over the whole array -/

section Host

open Cert.ReferenceIdeal Cert.ReferenceIdeal.Gen

theorem hostDot_l0 (i : S100000x128.Idx) (c : dot_S100000x128_S128x128_S100000x128_1_0_0_1_n_n.contr.Idx) : (dot_S100000x128_S128x128_S100000x128_1_0_0_1_n_n.lhsIdx i c 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem hostDot_l1 (i : S100000x128.Idx) (c : dot_S100000x128_S128x128_S100000x128_1_0_0_1_n_n.contr.Idx) : (dot_S100000x128_S128x128_S100000x128_1_0_0_1_n_n.lhsIdx i c 1).val = (c ⟨0, by decide⟩).val :=
  dot_S100000x128_S128x128_S100000x128_1_0_0_1_n_n.lhsIdx_val_of_single rfl i c
theorem hostDot_r0 (i : S100000x128.Idx) (c : dot_S100000x128_S128x128_S100000x128_1_0_0_1_n_n.contr.Idx) : (dot_S100000x128_S128x128_S100000x128_1_0_0_1_n_n.rhsIdx i c 0).val = (c ⟨0, by decide⟩).val :=
  dot_S100000x128_S128x128_S100000x128_1_0_0_1_n_n.rhsIdx_val_of_single rfl i c
theorem hostDot_r1 (i : S100000x128.Idx) (c : dot_S100000x128_S128x128_S100000x128_1_0_0_1_n_n.contr.Idx) : (dot_S100000x128_S128x128_S100000x128_1_0_0_1_n_n.rhsIdx i c 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- Entry `(p, q)` of the host's product is `∑ k, A (p, k) · W (k, q)`. -/
theorem hostDot_at (A : FVec Ideal S100000x128 .f32) (W : FVec Ideal S128x128 .f32) (p : Fin 100000) (q : Fin 128) :
    Host.dotGeneral (F := Ideal) dot_S100000x128_S128x128_S100000x128_1_0_0_1_n_n none A W (ix2 p q)
      = ∑ k : Fin 128, A (ix2 p k) * W (ix2 k q) := by
  simp only [Host.dotGeneral]
  rw [Ideal.dotGeneral_apply]
  rw [← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 p q) ((ValueIdx.contrEquiv1 dot_S100000x128_S128x128_S100000x128_1_0_0_1_n_n 128 rfl rfl).symm k) = ix2 p k := funext fun a => Fin.ext (by
    match a with
    | ⟨0, _⟩ => exact hostDot_l0 _ _
    | ⟨1, _⟩ => exact (hostDot_l1 _ _).trans hk)
  have er : dot_S100000x128_S128x128_S100000x128_1_0_0_1_n_n.rhsIdx (ix2 p q) ((ValueIdx.contrEquiv1 dot_S100000x128_S128x128_S100000x128_1_0_0_1_n_n 128 rfl rfl).symm k) = ix2 k q := funext fun a => Fin.ext (by
    match a with
    | ⟨0, _⟩ => exact (hostDot_r0 _ _).trans hk
    | ⟨1, _⟩ => exact hostDot_r1 _ _)
  rw [el, er]

end Host

/-! ## The kernel's product over one block of rows -/

section Block

open Cert.KernelIdeal Cert.KernelIdeal.Gen

theorem blockDot_l0 (i : S5000x128.Idx) (c : dot_S5000x128_S128x128_S5000x128_1_0_0_1_n_n.contr.Idx) : (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem blockDot_l1 (i : S5000x128.Idx) (c : dot_S5000x128_S128x128_S5000x128_1_0_0_1_n_n.contr.Idx) : (dot_S5000x128_S128x128_S5000x128_1_0_0_1_n_n.lhsIdx i c 1).val = (c ⟨0, by decide⟩).val :=
  dot_S5000x128_S128x128_S5000x128_1_0_0_1_n_n.lhsIdx_val_of_single rfl i c
theorem blockDot_r0 (i : S5000x128.Idx) (c : dot_S5000x128_S128x128_S5000x128_1_0_0_1_n_n.contr.Idx) : (dot_S5000x128_S128x128_S5000x128_1_0_0_1_n_n.rhsIdx i c 0).val = (c ⟨0, by decide⟩).val :=
  dot_S5000x128_S128x128_S5000x128_1_0_0_1_n_n.rhsIdx_val_of_single rfl i c
theorem blockDot_r1 (i : S5000x128.Idx) (c : dot_S5000x128_S128x128_S5000x128_1_0_0_1_n_n.contr.Idx) : (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry `(p, q)` of a block's product into a zero accumulator is `∑ k, a (p, k) · w (k, q)`. -/
theorem blockMatmul_at (a : FVec Ideal S5000x128 .bf16) (w : FVec Ideal S128x128 .bf16) (p : Fin 5000) (q : Fin 128) :
    matmul (F := Ideal) dot_S5000x128_S128x128_S5000x128_1_0_0_1_n_n none a w (constant S5000x128 .f32 0x00000000#32) (ix2 p q)
      = ∑ k : Fin 128, a (ix2 p k) * w (ix2 k q) := by
  refine (Ideal.matmul_constant_zero_apply dot_S5000x128_S128x128_S5000x128_1_0_0_1_n_n none a w (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact blockDot_l0 _ _
    | ⟨1, _⟩ => exact (blockDot_l1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (blockDot_r0 _ _).trans hk
    | ⟨1, _⟩ => exact blockDot_r1 _ _)
  rw [el, er]

end Block

end Cert.Sage.At

end
-- ==== Proof.Lin.lean ====
/-
  One layer's combine step at one entry, on the extended reals, and the law that joins the two programs.

  For a tall operand pair `A, X : [n, 128]`, two matrices `WL, WR : [128, 128]` (already transposed: `WL (k, q)` is
  the weight from input feature `k` to output feature `q`) and a bias row `B : [1, 128]`, entry `(p, q)` of the kernel's
  result is
      `(∑ k, A (p, k) · WL (k, q)  +  ∑ k, X (p, k) · WR (k, q))  +  B (0, q)`            (`linAt`),
  while the reference adds the bias before the second product:
      `(∑ k, A (p, k) · WL (k, q)  +  B (0, q))  +  ∑ k, X (p, k) · WR (k, q)`.
  Addition of extended reals is commutative and associative (with `⊥ + ⊤ = ⊥`), so the two agree on EVERY input,
  finite or not: `add_right_comm`. The first layer takes the maximum with zero afterwards (`reluAt`).
-/
import Idealize.ShloMosaic.Lib.ValueIdx
import Idealize.ShloMosaic.PureOps.Ideal

noncomputable section

namespace Cert.Sage

open Idealize.ShloMosaic Idealize.ShloMosaic.ValueIdx

/-- Entry `(p, q)` of `(A · WL + X · WR) + B`, the bias row spread over the rows. -/
def linAt {n : ℕ} (A X : (⟨2, ![n, 128]⟩ : Shape).Idx → EReal) (WL WR : (⟨2, ![128, 128]⟩ : Shape).Idx → EReal)
    (B : (⟨2, ![1, 128]⟩ : Shape).Idx → EReal) (p : Fin n) (q : Fin 128) : EReal :=
  ((∑ k : Fin 128, A (ix2 p k) * WL (ix2 k q)) + ∑ k : Fin 128, X (ix2 p k) * WR (ix2 k q)) + B (ix2 (0 : Fin 1) q)

/-- The maximum with zero. -/
def reluAt (v : EReal) : EReal := max v 0

/-- The array of the entries `linAt`. -/
def lin {n : ℕ} (A X : (⟨2, ![n, 128]⟩ : Shape).Idx → EReal) (WL WR : (⟨2, ![128, 128]⟩ : Shape).Idx → EReal)
    (B : (⟨2, ![1, 128]⟩ : Shape).Idx → EReal) : (⟨2, ![n, 128]⟩ : Shape).Idx → EReal :=
  fun i => linAt A X WL WR B (i 0) (i 1)

/-- The array of the entries `reluAt (linAt …)`. -/
def linRelu {n : ℕ} (A X : (⟨2, ![n, 128]⟩ : Shape).Idx → EReal) (WL WR : (⟨2, ![128, 128]⟩ : Shape).Idx → EReal)
    (B : (⟨2, ![1, 128]⟩ : Shape).Idx → EReal) : (⟨2, ![n, 128]⟩ : Shape).Idx → EReal :=
  fun i => reluAt (linAt A X WL WR B (i 0) (i 1))

theorem lin_ix2 {n : ℕ} (A X : (⟨2, ![n, 128]⟩ : Shape).Idx → EReal) (WL WR : (⟨2, ![128, 128]⟩ : Shape).Idx → EReal)
    (B : (⟨2, ![1, 128]⟩ : Shape).Idx → EReal) (p : Fin n) (q : Fin 128) :
    lin A X WL WR B (ix2 p q) = linAt A X WL WR B p q := rfl

theorem linRelu_ix2 {n : ℕ} (A X : (⟨2, ![n, 128]⟩ : Shape).Idx → EReal) (WL WR : (⟨2, ![128, 128]⟩ : Shape).Idx → EReal)
    (B : (⟨2, ![1, 128]⟩ : Shape).Idx → EReal) (p : Fin n) (q : Fin 128) :
    linRelu A X WL WR B (ix2 p q) = reluAt (linAt A X WL WR B p q) := rfl

/-- The reference's order of the three summands is the kernel's: no finiteness is needed. -/
theorem bias_first (s₁ b s₂ : EReal) : (s₁ + b) + s₂ = (s₁ + s₂) + b := add_right_comm s₁ b s₂

end Cert.Sage

end
-- ==== Proof.Block.lean ====
/-
  What one grid point's body computes, at one entry of its output block. The body loads a block of aggregated
  features `a` and of node features `x` (5000 rows each), the two transposed weight matrices and the bias row, rounds
  the four matrix operands to bf16 (the identity on the extended reals), multiplies into zero accumulators, adds the
  two products and then the bias row, and in the first layer takes the maximum with zero. Entry `(p, q)` is therefore
  `linAt a x wl wr b p q`, and `reluAt` of it in the first layer.
-/
import proofs.«102868_j6708738916582_1_alg».proof.Proof.Gen.KernelIdeal.Skeleton
import proofs.«102868_j6708738916582_1_alg».proof.Proof.DotAt
import proofs.«102868_j6708738916582_1_alg».proof.Proof.Lin
import Idealize.ShloMosaic.Lib.Pipeline.Value
import Idealize.ShloMosaic.Lib.ValueLayout

noncomputable section

namespace Cert.KernelIdeal.Layers

open Cert.KernelIdeal Cert.KernelIdeal.Gen Cert.Sage Cert.Sage.At
open Idealize.ShloMosaic Idealize.ShloMosaic.TcCoe Idealize.ShloMosaic.ValueIdx

/-- The second layer's body at an entry. -/
theorem pay_plain_at (a x : Vec Ideal S5000x128 .f32) (wl wr : Vec Ideal S128x128 .f32) (b : Vec Ideal S1x128 .f32)
    (p : Fin 5000) (q : Fin 128) :
    k1_pay1 (F := Ideal) a x wl wr b (ix2 p q) = linAt a x wl wr b p q := by
  have e1 := blockMatmul_at (truncf .bf16 (shapeCast S5000x128 a shapeCasts_S5000x128_S5000x128) bitsLt_bf16_f32)
    (truncf .bf16 (shapeCast S128x128 wl shapeCasts_S128x128_S128x128) bitsLt_bf16_f32) p q
  have e2 := blockMatmul_at (truncf .bf16 (shapeCast S5000x128 x shapeCasts_S5000x128_S5000x128) bitsLt_bf16_f32)
    (truncf .bf16 (shapeCast S128x128 wr shapeCasts_S128x128_S128x128) bitsLt_bf16_f32) p q
  have e3 := broadcastTo_1b_ab_apply (a := 5000) (shapeCast S1x128 b shapeCasts_S1x128_S1x128) broadcasts_S1x128_S5000x128 p q
  unfold k1_pay1
  refine (congrArg₂ (· + ·) (congrArg₂ (· + ·) e1 e2) e3).trans ?_
  simp only [shapeCast_self]
  rfl

/-- The first layer's body at an entry. -/
theorem pay_relu_at (a x : Vec Ideal S5000x128 .f32) (wl wr : Vec Ideal S128x128 .f32) (b : Vec Ideal S1x128 .f32)
    (p : Fin 5000) (q : Fin 128) :
    k0_pay1 (F := Ideal) a x wl wr b (ix2 p q) = reluAt (linAt a x wl wr b p q) := by
  have e1 := blockMatmul_at (truncf .bf16 (shapeCast S5000x128 a shapeCasts_S5000x128_S5000x128) bitsLt_bf16_f32)
    (truncf .bf16 (shapeCast S128x128 wl shapeCasts_S128x128_S128x128) bitsLt_bf16_f32) p q
  have e2 := blockMatmul_at (truncf .bf16 x bitsLt_bf16_f32)
    (truncf .bf16 (shapeCast S128x128 wr shapeCasts_S128x128_S128x128) bitsLt_bf16_f32) p q
  have e3 := broadcastTo_1b_ab_apply (a := 5000) (shapeCast S1x128 b shapeCasts_S1x128_S1x128) broadcasts_S1x128_S5000x128 p q
  unfold k0_pay1
  refine (congrArg (fun v : EReal => max v (Ideal.ofBits .f32 0x00000000#32)) (congrArg₂ (· + ·) (congrArg₂ (· + ·) e1 e2) e3)).trans ?_
  rw [Ideal.ofBits_zero_f32]
  simp only [shapeCast_self]
  rfl

end Cert.KernelIdeal.Layers

end
-- ==== Proof.Region0.lean ====
/-
  THE FIRST LAYER'S REGION, from blocks to the whole array. The grid has twenty points; point `t` reads rows
  `5000 t … 5000 t + 4999` of the aggregated features and of the node features, the whole of both weight matrices and of
  the bias row, and writes the same rows of the output. So what point `t` writes back is block `t` of ONE array — entry
  `(P, q)` is `reluAt (linAt …)` of the operand arrays at `(P, q)`, which depends on row `P` of the two tall operands only —
  and the twenty blocks tile the output: after the region the output array is that array, whatever it held before.
-/
import proofs.«102868_j6708738916582_1_alg».proof.Proof.Gen.KernelIdeal.Frame
import proofs.«102868_j6708738916582_1_alg».proof.Proof.Block

set_option maxRecDepth 16384

noncomputable section

namespace Cert.KernelIdeal.Layers

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin0 : (![0, 0] : Fin 2 → Nat) = fun _ => 0 := funext fun a => by fin_cases a <;> rfl

/-- The printed index maps, decided over the twenty grid points: the two tall operands and the output move down one
    block of 5000 rows per point, the weight matrices and the bias row stay put. -/
theorem index_maps0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Block `t` of the aggregated features is rows `5000 t … 5000 t + 4999` of their array. -/
theorem rows_agg0 (c : Dev nD) (t : Fin cfg0.N) (p : Fin 5000) (k : Fin 128) (P : Fin 100000) (hP : P.val = t.val * 5000 + p.val) :
    (iblk0 V c 0 t : Vec Ideal S5000x128 .f32) (ix2 p k) = (V c main_v22 : S100000x128.Idx → Elt Ideal .f32) (ix2 P k) := by
  obtain ⟨e0, e1, -⟩ := index_maps0 t
  unfold iblk0
  rw [View.read_apply]
  show V c main_v22 _ = V c main_v22 _
  congr 1
  funext a
  apply Fin.ext
  match a with
  | ⟨0, _⟩ => show win0_0.index t 0 * 5000 + 1 * p.val = P.val; rw [e0, hP]; omega
  | ⟨1, _⟩ => show win0_0.index t 1 * 128 + 1 * k.val = k.val; rw [e1]; omega

/-- Block `t` of the node features is the same rows of theirs. -/
theorem rows_self0 (c : Dev nD) (t : Fin cfg0.N) (p : Fin 5000) (k : Fin 128) (P : Fin 100000) (hP : P.val = t.val * 5000 + p.val) :
    (iblk0 V c 1 t : Vec Ideal S5000x128 .f32) (ix2 p k) = (V c main_arg0 : S100000x128.Idx → Elt Ideal .f32) (ix2 P k) := by
  obtain ⟨-, -, e0, e1, -⟩ := index_maps0 t
  unfold iblk0
  rw [View.read_apply]
  show V c main_arg0 _ = V c main_arg0 _
  congr 1
  funext a
  apply Fin.ext
  match a with
  | ⟨0, _⟩ => show win0_1.index t 0 * 5000 + 1 * p.val = P.val; rw [e0, hP]; omega
  | ⟨1, _⟩ => show win0_1.index t 1 * 128 + 1 * k.val = k.val; rw [e1]; omega

/-- Every point's block of the left weight matrix is the whole matrix. -/
theorem whole_wl0 (c : Dev nD) (t : Fin cfg0.N) (k q : Fin 128) :
    (iblk0 V c 2 t : Vec Ideal S128x128 .f32) (ix2 k q) = (V c main_v23 : S128x128.Idx → Elt Ideal .f32) (ix2 k q) := by
  obtain ⟨-, -, -, -, e0, e1, -⟩ := index_maps0 t
  unfold iblk0
  rw [View.read_apply]
  show V c main_v23 _ = V c main_v23 _
  congr 1
  funext a
  apply Fin.ext
  match a with
  | ⟨0, _⟩ => show win0_2.index t 0 * 128 + 1 * k.val = k.val; rw [e0]; omega
  | ⟨1, _⟩ => show win0_2.index t 1 * 128 + 1 * q.val = q.val; rw [e1]; omega

/-- Every point's block of the bias row is the whole row. -/
theorem whole_bias0 (c : Dev nD) (t : Fin cfg0.N) (u : Fin 1) (q : Fin 128) :
    (iblk0 V c 3 t : Vec Ideal S1x128 .f32) (ix2 u q) = (V c main_v25 : S1x128.Idx → Elt Ideal .f32) (ix2 u q) := by
  obtain ⟨-, -, -, -, -, -, e0, e1, -⟩ := index_maps0 t
  unfold iblk0
  rw [View.read_apply]
  show V c main_v25 _ = V c main_v25 _
  congr 1
  funext a
  apply Fin.ext
  match a with
  | ⟨0, _⟩ => show win0_3.index t 0 * 1 + 1 * u.val = u.val; rw [e0]; omega
  | ⟨1, _⟩ => show win0_3.index t 1 * 128 + 1 * q.val = q.val; rw [e1]; omega

/-- Every point's block of the right weight matrix is the whole matrix. -/
theorem whole_wr0 (c : Dev nD) (t : Fin cfg0.N) (k q : Fin 128) :
    (iblk0 V c 4 t : Vec Ideal S128x128 .f32) (ix2 k q) = (V c main_v24 : S128x128.Idx → Elt Ideal .f32) (ix2 k q) := by
  obtain ⟨-, -, -, -, -, -, -, -, e0, e1, -⟩ := index_maps0 t
  unfold iblk0
  rw [View.read_apply]
  show V c main_v24 _ = V c main_v24 _
  congr 1
  funext a
  apply Fin.ext
  match a with
  | ⟨0, _⟩ => show win0_4.index t 0 * 128 + 1 * k.val = k.val; rw [e0]; omega
  | ⟨1, _⟩ => show win0_4.index t 1 * 128 + 1 * q.val = q.val; rw [e1]; omega

/-- The first layer's output as one array: entry `(P, q)` is `reluAt (linAt …)` of the five operand arrays as the region finds them. -/
abbrev whole0 (c : Dev nD) : S100000x128.Idx → Elt Ideal .f32 :=
  linRelu (V c main_v22) (V c main_arg0) (V c main_v23) (V c main_v24) (V c main_v25)

/-- WHAT POINT `t` WRITES BACK is block `t` of that array. -/
theorem flushed0_eq (c : Dev nD) (t : Fin cfg0.N) :
    (dat0 V c).flushed 5 t = ((cfg0.win 5).blk t).view.read (Elt Ideal) (whole0 V c) := by
  show (cfg0.win 5).cut (grid0.coords t) ((dat0 V c).after 5 t) = _
  rw [after0_5]
  unfold out0_5
  rw [View.canon_unit_zero origin0]
  simp only [View.ld_unit_zero (S := S5000x128) origin0, View.ld_unit_zero (S := S128x128) origin0, View.ld_unit_zero (S := S1x128) origin0]
  refine funext fun (j : S5000x128.Idx) => ?_
  obtain ⟨p, q, rfl⟩ : ∃ (p : Fin 5000) (q : Fin 128), j = ix2 p q := ⟨j 0, j 1, eq_ix2 j⟩
  obtain ⟨-, -, -, -, -, -, -, -, -, -, e0, e1⟩ := index_maps0 t
  have ht : t.val < 20 := lt_of_lt_of_eq t.isLt N_0
  have hemb : ((cfg0.win 5).blk t).view.emb (ix2 p q) = (ix2 (⟨t.val * 5000 + p.val, by have := p.isLt; omega⟩ : Fin 100000) q : S100000x128.Idx) := by
    funext a
    apply Fin.ext
    match a with
    | ⟨0, _⟩ => show win0_5.index t 0 * 5000 + 1 * p.val = t.val * 5000 + p.val; rw [e0]; omega
    | ⟨1, _⟩ => show win0_5.index t 1 * 128 + 1 * q.val = q.val; rw [e1]; omega
  show _ = whole0 V c (((cfg0.win 5).blk t).view.emb (ix2 p q))
  rw [hemb]
  refine (pay_relu_at (iblk0 V c 0 t) (iblk0 V c 1 t) (iblk0 V c 2 t) (iblk0 V c 4 t) (iblk0 V c 3 t) p q).trans ?_
  show _ = reluAt (linAt (V c main_v22) (V c main_arg0) (V c main_v23) (V c main_v24) (V c main_v25) ⟨t.val * 5000 + p.val, by have := p.isLt; omega⟩ q)
  unfold linAt
  simp only [rows_agg0 V c t p _ ⟨t.val * 5000 + p.val, by have := p.isLt; omega⟩ rfl, rows_self0 V c t p _ ⟨t.val * 5000 + p.val, by have := p.isLt; omega⟩ rfl,
    whole_wl0 V c t, whole_wr0 V c t, whole_bias0 V c t]

/-- An index of the array is in point `t`'s block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- The twenty blocks of 5000 rows tile the array: row `r` is in block `r / 5000`. -/
theorem cover0 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  have hlt : (i 0).val / 5000 < cfg0.N := by rw [hN]; omega
  obtain ⟨-, -, -, -, -, -, -, -, -, -, e0, e1⟩ := index_maps0 ⟨(i 0).val / 5000, hlt⟩
  refine ⟨⟨(i 0).val / 5000, hlt⟩, flush0_5 _, ?_⟩
  rw [mem_blk0]
  intro a
  match a with
  | ⟨0, _⟩ =>
    show win0_5.index ⟨(i 0).val / 5000, hlt⟩ 0 * 5000 ≤ (i 0).val ∧ (i 0).val < win0_5.index ⟨(i 0).val / 5000, hlt⟩ 0 * 5000 + 5000
    rw [e0]
    show (i 0).val / 5000 * 5000 ≤ (i 0).val ∧ (i 0).val < (i 0).val / 5000 * 5000 + 5000
    omega
  | ⟨1, _⟩ =>
    show win0_5.index ⟨(i 0).val / 5000, hlt⟩ 1 * 128 ≤ (i 1).val ∧ (i 1).val < win0_5.index ⟨(i 0).val / 5000, hlt⟩ 1 * 128 + 128
    rw [e1]
    omega

/-- THE OUTPUT ARRAY after the region, whatever the buffers held when it was entered (`V`). -/
theorem final0 (c : Dev nD) : (dat0 V c).arrAt 5 cfg0.N = whole0 V c :=
  (dat0 V c).arrAt_eq_of_cover 5 (whole0 V c) (fun t _ => flushed0_eq V c t) (cover0)

end Cert.KernelIdeal.Layers

end
-- ==== Proof.Region1.lean ====
/-
  THE SECOND LAYER'S REGION, from blocks to the whole array. The grid has twenty points; point `t` reads rows
  `5000 t … 5000 t + 4999` of the aggregated features and of the node features, the whole of both weight matrices and of
  the bias row, and writes the same rows of the output. So what point `t` writes back is block `t` of ONE array — entry
  `(P, q)` is `linAt` of the operand arrays at `(P, q)`, which depends on row `P` of the two tall operands only — and the
  twenty blocks tile the output: after the region the output array is that array, whatever it held before.
-/
import proofs.«102868_j6708738916582_1_alg».proof.Proof.Gen.KernelIdeal.Frame
import proofs.«102868_j6708738916582_1_alg».proof.Proof.Block

set_option maxRecDepth 16384

noncomputable section

namespace Cert.KernelIdeal.Layers

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin1 : (![0, 0] : Fin 2 → Nat) = fun _ => 0 := funext fun a => by fin_cases a <;> rfl

/-- The printed index maps, decided over the twenty grid points: the two tall operands and the output move down one
    block of 5000 rows per point, the weight matrices and the bias row stay put. -/
theorem index_maps1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Block `t` of the aggregated features is rows `5000 t … 5000 t + 4999` of their array. -/
theorem rows_agg1 (c : Dev nD) (t : Fin cfg1.N) (p : Fin 5000) (k : Fin 128) (P : Fin 100000) (hP : P.val = t.val * 5000 + p.val) :
    (iblk1 V c 0 t : Vec Ideal S5000x128 .f32) (ix2 p k) = (V c main_v45 : S100000x128.Idx → Elt Ideal .f32) (ix2 P k) := by
  obtain ⟨e0, e1, -⟩ := index_maps1 t
  unfold iblk1
  rw [View.read_apply]
  show V c main_v45 _ = V c main_v45 _
  congr 1
  funext a
  apply Fin.ext
  match a with
  | ⟨0, _⟩ => show win1_0.index t 0 * 5000 + 1 * p.val = P.val; rw [e0, hP]; omega
  | ⟨1, _⟩ => show win1_0.index t 1 * 128 + 1 * k.val = k.val; rw [e1]; omega

/-- Block `t` of the node features is the same rows of theirs. -/
theorem rows_self1 (c : Dev nD) (t : Fin cfg1.N) (p : Fin 5000) (k : Fin 128) (P : Fin 100000) (hP : P.val = t.val * 5000 + p.val) :
    (iblk1 V c 1 t : Vec Ideal S5000x128 .f32) (ix2 p k) = (V c main_v26 : S100000x128.Idx → Elt Ideal .f32) (ix2 P k) := by
  obtain ⟨-, -, e0, e1, -⟩ := index_maps1 t
  unfold iblk1
  rw [View.read_apply]
  show V c main_v26 _ = V c main_v26 _
  congr 1
  funext a
  apply Fin.ext
  match a with
  | ⟨0, _⟩ => show win1_1.index t 0 * 5000 + 1 * p.val = P.val; rw [e0, hP]; omega
  | ⟨1, _⟩ => show win1_1.index t 1 * 128 + 1 * k.val = k.val; rw [e1]; omega

/-- Every point's block of the left weight matrix is the whole matrix. -/
theorem whole_wl1 (c : Dev nD) (t : Fin cfg1.N) (k q : Fin 128) :
    (iblk1 V c 2 t : Vec Ideal S128x128 .f32) (ix2 k q) = (V c main_v46 : S128x128.Idx → Elt Ideal .f32) (ix2 k q) := by
  obtain ⟨-, -, -, -, e0, e1, -⟩ := index_maps1 t
  unfold iblk1
  rw [View.read_apply]
  show V c main_v46 _ = V c main_v46 _
  congr 1
  funext a
  apply Fin.ext
  match a with
  | ⟨0, _⟩ => show win1_2.index t 0 * 128 + 1 * k.val = k.val; rw [e0]; omega
  | ⟨1, _⟩ => show win1_2.index t 1 * 128 + 1 * q.val = q.val; rw [e1]; omega

/-- Every point's block of the bias row is the whole row. -/
theorem whole_bias1 (c : Dev nD) (t : Fin cfg1.N) (u : Fin 1) (q : Fin 128) :
    (iblk1 V c 3 t : Vec Ideal S1x128 .f32) (ix2 u q) = (V c main_v48 : S1x128.Idx → Elt Ideal .f32) (ix2 u q) := by
  obtain ⟨-, -, -, -, -, -, e0, e1, -⟩ := index_maps1 t
  unfold iblk1
  rw [View.read_apply]
  show V c main_v48 _ = V c main_v48 _
  congr 1
  funext a
  apply Fin.ext
  match a with
  | ⟨0, _⟩ => show win1_3.index t 0 * 1 + 1 * u.val = u.val; rw [e0]; omega
  | ⟨1, _⟩ => show win1_3.index t 1 * 128 + 1 * q.val = q.val; rw [e1]; omega

/-- Every point's block of the right weight matrix is the whole matrix. -/
theorem whole_wr1 (c : Dev nD) (t : Fin cfg1.N) (k q : Fin 128) :
    (iblk1 V c 4 t : Vec Ideal S128x128 .f32) (ix2 k q) = (V c main_v47 : S128x128.Idx → Elt Ideal .f32) (ix2 k q) := by
  obtain ⟨-, -, -, -, -, -, -, -, e0, e1, -⟩ := index_maps1 t
  unfold iblk1
  rw [View.read_apply]
  show V c main_v47 _ = V c main_v47 _
  congr 1
  funext a
  apply Fin.ext
  match a with
  | ⟨0, _⟩ => show win1_4.index t 0 * 128 + 1 * k.val = k.val; rw [e0]; omega
  | ⟨1, _⟩ => show win1_4.index t 1 * 128 + 1 * q.val = q.val; rw [e1]; omega

/-- The second layer's output as one array: entry `(P, q)` is `linAt` of the five operand arrays as the region finds them. -/
abbrev whole1 (c : Dev nD) : S100000x128.Idx → Elt Ideal .f32 :=
  lin (V c main_v45) (V c main_v26) (V c main_v46) (V c main_v47) (V c main_v48)

/-- WHAT POINT `t` WRITES BACK is block `t` of that array. -/
theorem flushed1_eq (c : Dev nD) (t : Fin cfg1.N) :
    (dat1 V c).flushed 5 t = ((cfg1.win 5).blk t).view.read (Elt Ideal) (whole1 V c) := by
  show (cfg1.win 5).cut (grid1.coords t) ((dat1 V c).after 5 t) = _
  rw [after1_5]
  unfold out1_5
  rw [View.canon_unit_zero origin1]
  simp only [View.ld_unit_zero (S := S5000x128) origin1, View.ld_unit_zero (S := S128x128) origin1, View.ld_unit_zero (S := S1x128) origin1]
  refine funext fun (j : S5000x128.Idx) => ?_
  obtain ⟨p, q, rfl⟩ : ∃ (p : Fin 5000) (q : Fin 128), j = ix2 p q := ⟨j 0, j 1, eq_ix2 j⟩
  obtain ⟨-, -, -, -, -, -, -, -, -, -, e0, e1⟩ := index_maps1 t
  have ht : t.val < 20 := lt_of_lt_of_eq t.isLt N_1
  have hemb : ((cfg1.win 5).blk t).view.emb (ix2 p q) = (ix2 (⟨t.val * 5000 + p.val, by have := p.isLt; omega⟩ : Fin 100000) q : S100000x128.Idx) := by
    funext a
    apply Fin.ext
    match a with
    | ⟨0, _⟩ => show win1_5.index t 0 * 5000 + 1 * p.val = t.val * 5000 + p.val; rw [e0]; omega
    | ⟨1, _⟩ => show win1_5.index t 1 * 128 + 1 * q.val = q.val; rw [e1]; omega
  show _ = whole1 V c (((cfg1.win 5).blk t).view.emb (ix2 p q))
  rw [hemb]
  refine (pay_plain_at (iblk1 V c 0 t) (iblk1 V c 1 t) (iblk1 V c 2 t) (iblk1 V c 4 t) (iblk1 V c 3 t) p q).trans ?_
  show _ = linAt (V c main_v45) (V c main_v26) (V c main_v46) (V c main_v47) (V c main_v48) ⟨t.val * 5000 + p.val, by have := p.isLt; omega⟩ q
  unfold linAt
  simp only [rows_agg1 V c t p _ ⟨t.val * 5000 + p.val, by have := p.isLt; omega⟩ rfl, rows_self1 V c t p _ ⟨t.val * 5000 + p.val, by have := p.isLt; omega⟩ rfl,
    whole_wl1 V c t, whole_wr1 V c t, whole_bias1 V c t]

/-- An index of the array is in point `t`'s block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v49).slice (win1_5.rect t)).set ↔ _
  rw [View.set_slice_whole, Rect.mem_set_unit]
  exact Iff.rfl

/-- The twenty blocks of 5000 rows tile the array: row `r` is in block `r / 5000`. -/
theorem cover1 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  have hlt : (i 0).val / 5000 < cfg1.N := by rw [hN]; omega
  obtain ⟨-, -, -, -, -, -, -, -, -, -, e0, e1⟩ := index_maps1 ⟨(i 0).val / 5000, hlt⟩
  refine ⟨⟨(i 0).val / 5000, hlt⟩, flush1_5 _, ?_⟩
  rw [mem_blk1]
  intro a
  match a with
  | ⟨0, _⟩ =>
    show win1_5.index ⟨(i 0).val / 5000, hlt⟩ 0 * 5000 ≤ (i 0).val ∧ (i 0).val < win1_5.index ⟨(i 0).val / 5000, hlt⟩ 0 * 5000 + 5000
    rw [e0]
    show (i 0).val / 5000 * 5000 ≤ (i 0).val ∧ (i 0).val < (i 0).val / 5000 * 5000 + 5000
    omega
  | ⟨1, _⟩ =>
    show win1_5.index ⟨(i 0).val / 5000, hlt⟩ 1 * 128 ≤ (i 1).val ∧ (i 1).val < win1_5.index ⟨(i 0).val / 5000, hlt⟩ 1 * 128 + 128
    rw [e1]
    omega

/-- THE OUTPUT ARRAY after the region, whatever the buffers held when it was entered (`V`). -/
theorem final1 (c : Dev nD) : (dat1 V c).arrAt 5 cfg1.N = whole1 V c :=
  (dat1 V c).arrAt_eq_of_cover 5 (whole1 V c) (fun t _ => flushed1_eq V c t) (cover1)

end Cert.KernelIdeal.Layers

end
-- ==== Proof.LayerEq.lean ====
/-
  THE TWO SPELLINGS OF A LAYER ARE ONE ARRAY. The reference's `combine A X Wl b Wr = (A · Wlᵀ + b) + X · Wrᵀ` is
  host operations over whole arrays; the kernel's result is the array of entries `linAt A X Wlᵀ Wrᵀ b`, the bias as a
  `[1, 128]` row. At entry `(P, q)`: each host product is the plain sum `∑ k, lhs (P, k) · Wᵀ (k, q)`; the bias spread
  first to a row and then over the rows reads `b q`, and so does the bias reshaped to a row; what remains is the order
  of the three summands, `(s₁ + b) + s₂ = (s₁ + s₂) + b`, which holds for all extended reals. The maximum with the zero
  array is the maximum with `0` at every entry.
-/
import proofs.«102868_j6708738916582_1_alg».proof.Proof.Sage
import proofs.«102868_j6708738916582_1_alg».proof.Proof.DotAt
import proofs.«102868_j6708738916582_1_alg».proof.Proof.Lin
import Idealize.ShloMosaic.Lib.Pipeline.Value
import Idealize.ShloMosaic.Lib.ValueLayout

noncomputable section

namespace Cert.Sage

open Cert.Sage.At
open Idealize.ShloMosaic Idealize.ShloMosaic.TcCoe Idealize.ShloMosaic.ValueIdx

/-- A weight matrix transposed, as the kernel's program stages it. -/
abbrev wT (W : Mat Ideal) : Mat Ideal :=
  transpose Cert.KernelIdeal.S128x128 [1, 0] W Cert.KernelIdeal.Gen.transposes_S128x128_S128x128_1_0

/-- A bias vector as a one-row matrix, as the kernel's program stages it. -/
abbrev bRow (b : Bias Ideal) : (⟨Cert.KernelIdeal.S1x128, .f32⟩ : BufTy).Contents (Elt Ideal) :=
  shapeCast Cert.KernelIdeal.S1x128 b Cert.KernelIdeal.Gen.shapeCasts_S128_S1x128

section
open Cert.ReferenceIdeal Cert.ReferenceIdeal.Gen

/-- The bias spread to a row and then over the rows reads, at `(P, q)`, the bias at `q`. -/
theorem bias_at (b : Bias Ideal) (P : Fin 100000) (q : Fin 128) :
    broadcastInDim S100000x128 ![0, 1] bcast_S1x128_S100000x128_0_1 (broadcastInDim S1x128 ![1] bcast_S128_S1x128_1 b) (ix2 P q) = b (ix1 q) := by
  refine (broadcastInDim_apply ![0, 1] bcast_S1x128_S100000x128_0_1 (broadcastInDim S1x128 ![1] bcast_S128_S1x128_1 b) (ix2 P q) (ix2 (0 : Fin 1) q) (fun a => ?_)).trans ?_
  · match a with
    | ⟨0, _⟩ => rfl
    | ⟨1, _⟩ => rfl
  · refine broadcastInDim_apply ![1] bcast_S128_S1x128_1 b (ix2 (0 : Fin 1) q) (ix1 q) (fun a => ?_)
    match a with
    | ⟨0, _⟩ => rfl

/-- The zero array reads zero at every entry. -/
theorem zeros_at (i : S100000x128.Idx) :
    (broadcastInDim S100000x128 ![] bcast_S_S100000x128 (constant (F := Ideal) S_ .f32 0x00000000#32)) i = 0 := by
  refine (broadcastInDim_apply ![] bcast_S_S100000x128 (constant (F := Ideal) S_ .f32 0x00000000#32) i (fun a => a.elim0) (fun a => a.elim0)).trans ?_
  show Ideal.ofBits .f32 0x00000000#32 = 0
  exact Ideal.ofBits_zero_f32

end

/-- One layer at one entry: the reference's order of the summands is the kernel's. -/
theorem combine_at (A X : Feat Ideal) (Wl : Mat Ideal) (b : Bias Ideal) (Wr : Mat Ideal) (P : Fin 100000) (q : Fin 128) :
    combine A X Wl b Wr (ix2 P q) = linAt A X (wT Wl) (wT Wr) (bRow b) P q := by
  have e1 := hostDot_at A (transpose Cert.ReferenceIdeal.S128x128 [1, 0] Wl Cert.ReferenceIdeal.Gen.transposes_S128x128_S128x128_1_0) P q
  have e2 := hostDot_at X (transpose Cert.ReferenceIdeal.S128x128 [1, 0] Wr Cert.ReferenceIdeal.Gen.transposes_S128x128_S128x128_1_0) P q
  have e3 := bias_at b P q
  have e4 : bRow b (ix2 (0 : Fin 1) q) = b (ix1 q) := shapeCast_a_1a_apply b Cert.KernelIdeal.Gen.shapeCasts_S128_S1x128 0 q
  unfold combine
  refine (congrArg₂ (· + ·) (congrArg₂ (· + ·) e1 e3) e2).trans ?_
  unfold linAt
  rw [e4]
  exact bias_first _ _ _

/-- The second layer's two spellings are one array. -/
theorem combine_eq_lin (A X : Feat Ideal) (Wl : Mat Ideal) (b : Bias Ideal) (Wr : Mat Ideal) :
    combine A X Wl b Wr = lin A X (wT Wl) (wT Wr) (bRow b) := by
  refine funext fun (i : Cert.ReferenceIdeal.S100000x128.Idx) => ?_
  obtain ⟨P, q, rfl⟩ : ∃ (P : Fin 100000) (q : Fin 128), i = ix2 P q := ⟨i 0, i 1, eq_ix2 i⟩
  exact (combine_at A X Wl b Wr P q).trans (lin_ix2 A X (wT Wl) (wT Wr) (bRow b) P q).symm

/-- The first layer's two spellings are one array. -/
theorem relu_combine_eq_linRelu (A X : Feat Ideal) (Wl : Mat Ideal) (b : Bias Ideal) (Wr : Mat Ideal) :
    relu (combine A X Wl b Wr) = linRelu A X (wT Wl) (wT Wr) (bRow b) := by
  refine funext fun (i : Cert.ReferenceIdeal.S100000x128.Idx) => ?_
  obtain ⟨P, q, rfl⟩ : ∃ (P : Fin 100000) (q : Fin 128), i = ix2 P q := ⟨i 0, i 1, eq_ix2 i⟩
  unfold relu
  refine (congrArg₂ max (combine_at A X Wl b Wr P q) (zeros_at (ix2 P q))).trans ?_
  exact (linRelu_ix2 A X (wT Wl) (wT Wr) (bRow b) P q).symm

end Cert.Sage

end
-- ==== Proof.KernelValue.lean ====
/-
  THE KERNEL PROGRAM'S RESULT IS THE ENCODER OF ITS ARGUMENTS (at the extended reals).

  The buffer contents at the program's boundaries are a fold from the launch memory. The first stretch of host
  operations leaves, at the first region's five operand buffers, the mean aggregation of the node features, the node
  features themselves, the two first-layer weight matrices transposed and the first bias as a row; the region then leaves
  the array `linRelu` of those in its output buffer, which is the specification's `hidden` (the two spellings of a layer are
  one array). The second stretch reads that buffer and the edge list's two rows — sliced once, before the first region, and
  untouched since — and leaves the mean aggregation of `hidden`, the second-layer matrices transposed and the second bias as
  a row; the second region leaves `lin` of those in the result buffer, which is the specification's `out`.
-/
import proofs.«102868_j6708738916582_1_alg».proof.Proof.Region0
import proofs.«102868_j6708738916582_1_alg».proof.Proof.Region1
import proofs.«102868_j6708738916582_1_alg».proof.Proof.LayerEq
import Idealize.ShloMosaic.Lib.StableHlo.Run

set_option maxRecDepth 16384

noncomputable section

namespace Cert.KernelIdeal.Layers

open Cert.KernelIdeal Cert.KernelIdeal.Gen Cert.Sage
open Idealize.ShloMosaic Idealize.ShloMosaic.TcCoe Idealize.SL.Sem Idealize.ShloMosaic.StableHlo

variable (m : (ℓ : Loc nD τ sig) → Buf (Elt Ideal) ℓ) (ρ : Dev nD → PrngReg)

/-- An argument array, or any buffer, as launched on core `c`. -/
abbrev launched (c : Dev nD) (b : Ref sig .tc) : Buf (Elt Ideal) ((c : Thread nD τ).loc b) := m ((c : Thread nD τ).loc b)

/-- Arrays that are equal entry for entry give equal layers. -/
theorem lin_congr {A A' X X' : (⟨2, ![100000, 128]⟩ : Shape).Idx → EReal} {WL WL' WR WR' : (⟨2, ![128, 128]⟩ : Shape).Idx → EReal}
    {B B' : (⟨2, ![1, 128]⟩ : Shape).Idx → EReal} (hA : A = A') (hX : X = X') (hWL : WL = WL') (hWR : WR = WR') (hB : B = B') :
    lin A X WL WR B = lin A' X' WL' WR' B' := by subst hA hX hWL hWR hB; rfl

theorem linRelu_congr {A A' X X' : (⟨2, ![100000, 128]⟩ : Shape).Idx → EReal} {WL WL' WR WR' : (⟨2, ![128, 128]⟩ : Shape).Idx → EReal}
    {B B' : (⟨2, ![1, 128]⟩ : Shape).Idx → EReal} (hA : A = A') (hX : X = X') (hWL : WL = WL') (hWR : WR = WR') (hB : B = B') :
    linRelu A X WL WR B = linRelu A' X' WL' WR' B' := by subst hA hX hWL hWR hB; rfl

/-! ## The first stretch of host operations: the first region's operands -/

set_option maxHeartbeats 8000000 in
theorem entry0_agg (c : Dev nD) : V1 m ρ c main_v22 = meanAgg (launched m c main_arg0) (launched m c main_arg1) := by
  show StableHlo.after hostOps0 (W0 m ρ c) (Proc.devRef .tc main_v22) = _
  after_results_simp
  unfold meanAgg degree dstIdx srcIdx dstRow srcRow
  rfl

theorem entry0_self (c : Dev nD) : V1 m ρ c main_arg0 = launched m c main_arg0 := by
  show StableHlo.after hostOps0 (W0 m ρ c) (Proc.devRef .tc main_arg0) = _
  after_results_simp <;> rfl

theorem entry0_wl (c : Dev nD) : V1 m ρ c main_v23 = wT (launched m c main_arg2) := by
  show StableHlo.after hostOps0 (W0 m ρ c) (Proc.devRef .tc main_v23) = _
  after_results_simp <;> rfl

theorem entry0_wr (c : Dev nD) : V1 m ρ c main_v24 = wT (launched m c main_arg4) := by
  show StableHlo.after hostOps0 (W0 m ρ c) (Proc.devRef .tc main_v24) = _
  after_results_simp <;> rfl

theorem entry0_bias (c : Dev nD) : V1 m ρ c main_v25 = bRow (launched m c main_arg3) := by
  show StableHlo.after hostOps0 (W0 m ρ c) (Proc.devRef .tc main_v25) = _
  after_results_simp <;> rfl

/-! ## After the first region: the hidden layer, and what it did not touch -/

/-- The first region's output buffer holds the first layer's output. -/
theorem hidden_eq (c : Dev nD) :
    W2 m ρ c (Proc.devRef .tc main_v26)
      = hidden (launched m c main_arg0) (launched m c main_arg1) (launched m c main_arg2) (launched m c main_arg3) (launched m c main_arg4) := by
  refine ((W2_arr m ρ c 5).trans (final0 (V1 m ρ) c)).trans ?_
  refine (linRelu_congr (entry0_agg m ρ c) (entry0_self m ρ c) (entry0_wl m ρ c) (entry0_wr m ρ c) (entry0_bias m ρ c)).trans ?_
  exact (relu_combine_eq_linRelu _ _ _ _ _).symm

/-- The edge list's source row, sliced by the first stretch, is still there. -/
theorem kept_src (c : Dev nD) : W2 m ρ c (Proc.devRef .tc main_v1) = srcRow (launched m c main_arg1) := by
  refine (W2_of_ne m ρ c main_v1 (by decide)).trans ?_
  show StableHlo.after hostOps0 (W0 m ρ c) (Proc.devRef .tc main_v1) = _
  after_results_simp <;> rfl

/-- The edge list's target row, sliced by the first stretch, is still there. -/
theorem kept_dst (c : Dev nD) : W2 m ρ c (Proc.devRef .tc main_v3) = dstRow (launched m c main_arg1) := by
  refine (W2_of_ne m ρ c main_v3 (by decide)).trans ?_
  show StableHlo.after hostOps0 (W0 m ρ c) (Proc.devRef .tc main_v3) = _
  after_results_simp <;> rfl

theorem kept_arg5 (c : Dev nD) : W2 m ρ c (Proc.devRef .tc main_arg5) = launched m c main_arg5 := by
  refine (W2_of_ne m ρ c main_arg5 (by decide)).trans ?_
  show StableHlo.after hostOps0 (W0 m ρ c) (Proc.devRef .tc main_arg5) = _
  after_results_simp <;> rfl

theorem kept_arg6 (c : Dev nD) : W2 m ρ c (Proc.devRef .tc main_arg6) = launched m c main_arg6 := by
  refine (W2_of_ne m ρ c main_arg6 (by decide)).trans ?_
  show StableHlo.after hostOps0 (W0 m ρ c) (Proc.devRef .tc main_arg6) = _
  after_results_simp <;> rfl

theorem kept_arg7 (c : Dev nD) : W2 m ρ c (Proc.devRef .tc main_arg7) = launched m c main_arg7 := by
  refine (W2_of_ne m ρ c main_arg7 (by decide)).trans ?_
  show StableHlo.after hostOps0 (W0 m ρ c) (Proc.devRef .tc main_arg7) = _
  after_results_simp <;> rfl

/-! ## The second stretch of host operations: the second region's operands -/

set_option maxHeartbeats 8000000 in
theorem entry1_agg (c : Dev nD) :
    V3 m ρ c main_v45 = meanAgg (W2 m ρ c (Proc.devRef .tc main_v26)) (launched m c main_arg1) := by
  show StableHlo.after hostOps1 (W2 m ρ c) (Proc.devRef .tc main_v45) = _
  after_results_simp
  simp only [kept_src m ρ c, kept_dst m ρ c]
  unfold meanAgg degree dstIdx srcIdx
  rfl

theorem entry1_self (c : Dev nD) : V3 m ρ c main_v26 = W2 m ρ c (Proc.devRef .tc main_v26) := by
  show StableHlo.after hostOps1 (W2 m ρ c) (Proc.devRef .tc main_v26) = _
  after_results_simp <;> rfl

theorem entry1_wl (c : Dev nD) : V3 m ρ c main_v46 = wT (launched m c main_arg5) := by
  show StableHlo.after hostOps1 (W2 m ρ c) (Proc.devRef .tc main_v46) = _
  after_results_simp
  rw [kept_arg5 m ρ c]

theorem entry1_wr (c : Dev nD) : V3 m ρ c main_v47 = wT (launched m c main_arg7) := by
  show StableHlo.after hostOps1 (W2 m ρ c) (Proc.devRef .tc main_v47) = _
  after_results_simp
  rw [kept_arg7 m ρ c]

theorem entry1_bias (c : Dev nD) : V3 m ρ c main_v48 = bRow (launched m c main_arg6) := by
  show StableHlo.after hostOps1 (W2 m ρ c) (Proc.devRef .tc main_v48) = _
  after_results_simp
  rw [kept_arg6 m ρ c]
  rfl

/-! ## The result -/

/-- The result buffer at the last boundary holds the encoder's output of the argument arrays as launched. -/
theorem result_eq (c : Dev nD) :
    W4 m ρ c (Proc.devRef .tc main_v49)
      = out (launched m c main_arg0) (launched m c main_arg1) (launched m c main_arg2) (launched m c main_arg3) (launched m c main_arg4)
          (launched m c main_arg5) (launched m c main_arg6) (launched m c main_arg7) := by
  refine ((W4_arr m ρ c 5).trans (final1 (V3 m ρ) c)).trans ?_
  refine (lin_congr ((entry1_agg m ρ c).trans (congrArg (fun H => meanAgg H (launched m c main_arg1)) (hidden_eq m ρ c)))
    ((entry1_self m ρ c).trans (hidden_eq m ρ c)) (entry1_wl m ρ c) (entry1_wr m ρ c) (entry1_bias m ρ c)).trans ?_
  exact (combine_eq_lin _ _ _ _ _).symm

end Cert.KernelIdeal.Layers

end
-- ==== Proof.lean ====
/-
  A two-layer GraphSAGE encoder with mean aggregation, computed two ways, gives one result on the extended reals.

  Both programs take node features `x : [100000, 128]`, an edge list `E : [2, 640000]` and, per layer, two weight
  matrices and a bias. Per layer both gather the source row of every edge, add it onto the edge's target row and divide
  by `max (deg) 1` — the same host operations in both programs — and then form
      `agg · Wlᵀ + b + h · Wrᵀ`     (followed, in the first layer, by the maximum with zero).
  The reference does this with two whole-array products, adding the bias between them. The kernel program does it in a
  grid of twenty points per layer, each point on a block of 5000 rows: it rounds the operands to bf16 (the identity on
  the extended reals), multiplies into zero accumulators, adds the two products and then the bias.

  The proof: the kernel program's run leaves its result buffer at the last of four boundary contents
  (`Cert.KernelIdeal.Named.run`); those contents, read back through the two regions (each block written is a block of
  one whole array, and the twenty blocks tile it) and the two stretches of host operations, are the specification
  `Cert.Sage.out` of the argument arrays (`Cert.KernelIdeal.Layers.result_eq`); the reference's result term is that
  same composition by unfolding (`Cert.Sage.res_eq`). The one law used between the two sides is
  `(s₁ + b) + s₂ = (s₁ + s₂) + b`, true of all extended reals, so the precondition (finite inputs) is never opened.
  The idealization pass rewrote nothing, so `preserves` is `True`; the three frames are the generated ones.
-/
import proofs.«102868_j6708738916582_1_alg».proof.Defs
import proofs.«102868_j6708738916582_1_alg».proof.Proof.Gen.Kernel
import proofs.«102868_j6708738916582_1_alg».proof.Proof.Gen.Kernel.Skeleton
import proofs.«102868_j6708738916582_1_alg».proof.Proof.Gen.Kernel.Launch
import proofs.«102868_j6708738916582_1_alg».proof.Proof.Gen.Kernel.Points
import proofs.«102868_j6708738916582_1_alg».proof.Proof.Gen.Kernel.Frame
import proofs.«102868_j6708738916582_1_alg».proof.Proof.Gen.KernelIdeal
import proofs.«102868_j6708738916582_1_alg».proof.Proof.Gen.KernelIdeal.Skeleton
import proofs.«102868_j6708738916582_1_alg».proof.Proof.Gen.KernelIdeal.Launch
import proofs.«102868_j6708738916582_1_alg».proof.Proof.Gen.KernelIdeal.Points
import proofs.«102868_j6708738916582_1_alg».proof.Proof.Gen.KernelIdeal.Frame
import proofs.«102868_j6708738916582_1_alg».proof.Proof.Gen.ReferenceIdeal
import proofs.«102868_j6708738916582_1_alg».proof.Proof.Gen.ReferenceIdeal.Run
import proofs.«102868_j6708738916582_1_alg».proof.Proof.Gen.Pre_finite_inputs
import proofs.«102868_j6708738916582_1_alg».proof.Proof.Sage
import proofs.«102868_j6708738916582_1_alg».proof.Proof.KernelRun
import proofs.«102868_j6708738916582_1_alg».proof.Proof.KernelValue
import Idealize.ShloMosaic.Adequacy
import Idealize.ShloMosaic.Init

noncomputable section

namespace Cert.Proof

open Idealize.ShloMosaic Idealize.ShloMosaic.TcCoe Idealize.SL.Sem

/-- The encoder of equal argument arrays is equal. -/
theorem out_congr {x x' : Cert.Sage.Feat Ideal} {E E' : Cert.Sage.Edges Ideal} {W1l W1l' W1r W1r' W2l W2l' W2r W2r' : Cert.Sage.Mat Ideal}
    {b1 b1' b2 b2' : Cert.Sage.Bias Ideal} (h0 : x = x') (h1 : E = E') (h2 : W1l = W1l') (h3 : b1 = b1') (h4 : W1r = W1r')
    (h5 : W2l = W2l') (h6 : b2 = b2') (h7 : W2r = W2r') :
    Cert.Sage.out x E W1l b1 W1r W2l b2 W2r = Cert.Sage.out x' E' W1l' b1' W1r' W2l' b2' W2r' := by
  subst h0 h1 h2 h3 h4 h5 h6 h7; rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization pass rewrote no operation. -/
theorem preserves : Cert.preserves_Kernel_KernelIdeal := trivial

/-- From memories agreeing on the arguments, both programs end with the encoder's output of those arguments. -/
theorem algebraic : Cert.algebraic_KernelIdeal_ReferenceIdeal := by
  intro m ρ m' ρ' _ hagree
  refine ⟨fun c => Cert.Sage.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Layers.result_eq m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    exact (Cert.Sage.res_eq m' c).trans (out_congr h0 h1 h2 h3 h4 h5 h6 h7)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
